-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x625000 : Shape := ⟨2, ![2, 625000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x625000 32) (main_arg2 : FVec F S128x128 .f32) (main_arg3 : FVec F S128 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x128 : Shape := ⟨2, ![50000, 128]⟩
abbrev S2x625000 : Shape := ⟨2, ![2, 625000]⟩
abbrev S128x128 : Shape := ⟨2, ![128, 128]⟩
abbrev S128 : Shape := ⟨1, ![128]⟩
abbrev S1x625000 : Shape := ⟨2, ![1, 625000]⟩
abbrev S625000 : Shape := ⟨1, ![625000]⟩
abbrev S_ : Shape := ⟨0, ![]⟩
abbrev S50000 : Shape := ⟨1, ![50000]⟩
abbrev S625000x1 : Shape := ⟨2, ![625000, 1]⟩
abbrev S625000x128 : Shape := ⟨2, ![625000, 128]⟩
abbrev S1x128 : Shape := ⟨2, ![1, 128]⟩
abbrev S5000x128 : Shape := ⟨2, ![5000, 128]⟩

abbrev nBuf : Space → Nat
  | .hbm => 90
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S2x625000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x625000, .i32⟩
  | .hbm, ⟨7, _⟩ => ⟨S625000, .i32⟩
  | .hbm, ⟨8, _⟩ => ⟨S1x625000, .i32⟩
  | .hbm, ⟨9, _⟩ => ⟨S625000, .i32⟩
  | .hbm, ⟨10, _⟩ => ⟨S_, .f32⟩
  | .hbm, ⟨11, _⟩ => ⟨S625000, .f32⟩
  | .hbm, ⟨12, _⟩ => ⟨S_, .f32⟩
  | .hbm, ⟨13, _⟩ => ⟨S50000, .f32⟩
  | .hbm, ⟨14, _⟩ => ⟨S625000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S625000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .i1⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S_, .i32⟩
  | .hbm, ⟨35, _⟩ => ⟨S625000, .i32⟩
  | .hbm, ⟨36, _⟩ => ⟨S625000, .i1⟩
  | .hbm, ⟨37, _⟩ => ⟨S_, .i32⟩
  | .hbm, ⟨38, _⟩ => ⟨S625000, .i32⟩
  | .hbm, ⟨39, _⟩ => ⟨S625000, .i32⟩
  | .hbm, ⟨40, _⟩ => ⟨S625000, .i32⟩
  | .hbm, ⟨41, _⟩ => ⟨S625000x1, .i32⟩
  | .hbm, ⟨42, _⟩ => ⟨S625000, .f32⟩
  | .hbm, ⟨43, _⟩ => ⟨S_, .i32⟩
  | .hbm, ⟨44, _⟩ => ⟨S625000, .i32⟩
  | .hbm, ⟨45, _⟩ => ⟨S625000, .i1⟩
  | .hbm, ⟨46, _⟩ => ⟨S_, .i32⟩
  | .hbm, ⟨47, _⟩ => ⟨S625000, .i32⟩
  | .hbm, ⟨48, _⟩ => ⟨S625000, .i32⟩
  | .hbm, ⟨49, _⟩ => ⟨S625000, .i32⟩
  | .hbm, ⟨50, _⟩ => ⟨S625000x1, .i32⟩
  | .hbm, ⟨51, _⟩ => ⟨S625000, .f32⟩
  | .hbm, ⟨52, _⟩ => ⟨S625000, .f32⟩
  | .hbm, ⟨53, _⟩ => ⟨S625000x1, .f32⟩
  | .hbm, ⟨54, _⟩ => ⟨S_, .i32⟩
  | .hbm, ⟨55, _⟩ => ⟨S625000, .i32⟩
  | .hbm, ⟨56, _⟩ => ⟨S625000, .i1⟩
  | .hbm, ⟨57, _⟩ => ⟨S_, .i32⟩
  | .hbm, ⟨58, _⟩ => ⟨S625000, .i32⟩
  | .hbm, ⟨59, _⟩ => ⟨S625000, .i32⟩
  | .hbm, ⟨60, _⟩ => ⟨S625000, .i32⟩
  | .hbm, ⟨61, _⟩ => ⟨S625000x1, .i32⟩
  | .hbm, ⟨62, _⟩ => ⟨S625000x128, .f32⟩
  | .hbm, ⟨63, _⟩ => ⟨S625000x128, .f32⟩
  | .hbm, ⟨64, _⟩ => ⟨S625000x128, .f32⟩
  | .hbm, ⟨65, _⟩ => ⟨S625000x1, .f32⟩
  | .hbm, ⟨66, _⟩ => ⟨S_, .i32⟩
  | .hbm, ⟨67, _⟩ => ⟨S625000, .i32⟩
  | .hbm, ⟨68, _⟩ => ⟨S625000, .i1⟩
  | .hbm, ⟨69, _⟩ => ⟨S_, .i32⟩
  | .hbm, ⟨70, _⟩ => ⟨S625000, .i32⟩
  | .hbm, ⟨71, _⟩ => ⟨S625000, .i32⟩
  | .hbm, ⟨72, _⟩ => ⟨S625000, .i32⟩
  | .hbm, ⟨73, _⟩ => ⟨S625000x1, .i32⟩
  | .hbm, ⟨74, _⟩ => ⟨S625000x128, .f32⟩
  | .hbm, ⟨75, _⟩ => ⟨S625000x128, .f32⟩
  | .hbm, ⟨76, _⟩ => ⟨S625000x128, .f32⟩
  | .hbm, ⟨77, _⟩ => ⟨S_, .f32⟩
  | .hbm, ⟨78, _⟩ => ⟨S50000x128, .f32⟩
  | .hbm, ⟨79, _⟩ => ⟨S625000x1, .i32⟩
  | .hbm, ⟨80, _⟩ => ⟨S50000x128, .f32⟩
  | .hbm, ⟨81, _⟩ => ⟨S_, .f32⟩
  | .hbm, ⟨82, _⟩ => ⟨S50000x128, .f32⟩
  | .hbm, ⟨83, _⟩ => ⟨S625000x1, .i32⟩
  | .hbm, ⟨84, _⟩ => ⟨S50000x128, .f32⟩
  | .hbm, ⟨85, _⟩ => ⟨S128x128, .f32⟩
  | .hbm, ⟨86, _⟩ => ⟨S128x128, .f32⟩
  | .hbm, ⟨87, _⟩ => ⟨S1x128, .f32⟩
  | .hbm, ⟨88, _⟩ => ⟨S1x128, .f32⟩
  | .hbm, ⟨89, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_c : Ref sig .tc := ⟨.hbm, 34, rfl⟩
abbrev main_v21 : Ref sig .tc := ⟨.hbm, 35, rfl⟩
abbrev main_v22 : Ref sig .tc := ⟨.hbm, 36, rfl⟩
abbrev main_c_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_7 : Ref sig .tc := ⟨.hbm, 43, rfl⟩
abbrev main_v28 : Ref sig .tc := ⟨.hbm, 44, rfl⟩
abbrev main_v29 : Ref sig .tc := ⟨.hbm, 45, rfl⟩
abbrev main_c_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_9 : Ref sig .tc := ⟨.hbm, 54, rfl⟩
abbrev main_v37 : Ref sig .tc := ⟨.hbm, 55, rfl⟩
abbrev main_v38 : Ref sig .tc := ⟨.hbm, 56, rfl⟩
abbrev main_c_10 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_11 : Ref sig .tc := ⟨.hbm, 66, rfl⟩
abbrev main_v47 : Ref sig .tc := ⟨.hbm, 67, rfl⟩
abbrev main_v48 : Ref sig .tc := ⟨.hbm, 68, rfl⟩
abbrev main_c_12 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_13 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_14 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S_S50000 : S_.BroadcastsInDim S50000 (![] : Fin 0 → Fin S50000.rank)
  bcast_S625000_S625000x1_0 : S625000.BroadcastsInDim S625000x1 (![0] : Fin 1 → Fin S625000x1.rank)
  bcast_S625000x1_S625000x128_0_1 : S625000x1.BroadcastsInDim S625000x128 (![0, 1] : Fin 2 → Fin S625000x128.rank)
  bcast_S_S50000x128 : S_.BroadcastsInDim S50000x128 (![] : Fin 0 → Fin S50000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S625000x1_S625000_n_0_0_1_wf : ScatterDims.WF S50000 S625000x1 S625000 [] [0] [0] 1
  gather_S50000_S625000x1_S625000_n_0_n_n_0_1_1_wf : GatherDims.WF S50000 S625000x1 S625000 [] [0] [] [0] [] 1 ![1]
  gather_S50000x128_S625000x1_S625000x128_1_0_n_n_0_1_1128_wf : GatherDims.WF S50000x128 S625000x1 S625000x128 [1] [0] [] [0] [] 1 ![1, 128]
  scatter_S50000x128_S625000x1_S625000x128_1_0_0_1_wf : ScatterDims.WF S50000x128 S625000x1 S625000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)

variable [Facts₀]

def scatter_S50000_S625000x1_S625000_n_0_0_1 : ScatterDims S50000 S625000x1 S625000 where
  updateWindowDims := []
  insertedWindowDims := [0]
  scatterDimsToOperandDims := [0]
  indexVectorDim := 1
  wf := scatter_S50000_S625000x1_S625000_n_0_0_1_wf
def gather_S50000_S625000x1_S625000_n_0_n_n_0_1_1 : GatherDims S50000 S625000x1 S625000 where
  offsetDims := []
  collapsedSliceDims := [0]
  operandBatchingDims := []
  startIndicesBatchingDims := []
  startIndexMap := [0]
  indexVectorDim := 1
  sliceSizes := ![1]
  wf := gather_S50000_S625000x1_S625000_n_0_n_n_0_1_1_wf
def gather_S50000x128_S625000x1_S625000x128_1_0_n_n_0_1_1128 : GatherDims S50000x128 S625000x1 S625000x128 where
  offsetDims := [1]
  collapsedSliceDims := [0]
  operandBatchingDims := []
  startIndicesBatchingDims := []
  startIndexMap := [0]
  indexVectorDim := 1
  sliceSizes := ![1, 128]
  wf := gather_S50000x128_S625000x1_S625000x128_1_0_n_n_0_1_1128_wf
def scatter_S50000x128_S625000x1_S625000x128_1_0_0_1 : ScatterDims S50000x128 S625000x1 S625000x128 where
  updateWindowDims := [1]
  insertedWindowDims := [0]
  scatterDimsToOperandDims := [0]
  indexVectorDim := 1
  wf := scatter_S50000x128_S625000x1_S625000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v58) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v61) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v62) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v63) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v64) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v65) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v66) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x625000 : Shape := ⟨2, ![2, 625000]⟩
abbrev S128x128 : Shape := ⟨2, ![128, 128]⟩
abbrev S128 : Shape := ⟨1, ![128]⟩
abbrev S1x625000 : Shape := ⟨2, ![1, 625000]⟩
abbrev S625000 : Shape := ⟨1, ![625000]⟩
abbrev S_ : Shape := ⟨0, ![]⟩
abbrev S50000 : Shape := ⟨1, ![50000]⟩
abbrev S625000x1 : Shape := ⟨2, ![625000, 1]⟩
abbrev S625000x128 : Shape := ⟨2, ![625000, 128]⟩
abbrev S1x128 : Shape := ⟨2, ![1, 128]⟩

abbrev nBuf : Space → Nat
  | .hbm => 102
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x625000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x625000, .i32⟩
  | .hbm, ⟨7, _⟩ => ⟨S625000, .i32⟩
  | .hbm, ⟨8, _⟩ => ⟨S1x625000, .i32⟩
  | .hbm, ⟨9, _⟩ => ⟨S625000, .i32⟩
  | .hbm, ⟨10, _⟩ => ⟨S_, .f32⟩
  | .hbm, ⟨11, _⟩ => ⟨S625000, .f32⟩
  | .hbm, ⟨12, _⟩ => ⟨S_, .f32⟩
  | .hbm, ⟨13, _⟩ => ⟨S50000, .f32⟩
  | .hbm, ⟨14, _⟩ => ⟨S625000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S625000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .i1⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S_, .i32⟩
  | .hbm, ⟨35, _⟩ => ⟨S625000, .i32⟩
  | .hbm, ⟨36, _⟩ => ⟨S625000, .i1⟩
  | .hbm, ⟨37, _⟩ => ⟨S_, .i32⟩
  | .hbm, ⟨38, _⟩ => ⟨S625000, .i32⟩
  | .hbm, ⟨39, _⟩ => ⟨S625000, .i32⟩
  | .hbm, ⟨40, _⟩ => ⟨S625000, .i32⟩
  | .hbm, ⟨41, _⟩ => ⟨S625000x1, .i32⟩
  | .hbm, ⟨42, _⟩ => ⟨S625000, .f32⟩
  | .hbm, ⟨43, _⟩ => ⟨S_, .i32⟩
  | .hbm, ⟨44, _⟩ => ⟨S625000, .i32⟩
  | .hbm, ⟨45, _⟩ => ⟨S625000, .i1⟩
  | .hbm, ⟨46, _⟩ => ⟨S_, .i32⟩
  | .hbm, ⟨47, _⟩ => ⟨S625000, .i32⟩
  | .hbm, ⟨48, _⟩ => ⟨S625000, .i32⟩
  | .hbm, ⟨49, _⟩ => ⟨S625000, .i32⟩
  | .hbm, ⟨50, _⟩ => ⟨S625000x1, .i32⟩
  | .hbm, ⟨51, _⟩ => ⟨S625000, .f32⟩
  | .hbm, ⟨52, _⟩ => ⟨S625000, .f32⟩
  | .hbm, ⟨53, _⟩ => ⟨S625000x1, .f32⟩
  | .hbm, ⟨54, _⟩ => ⟨S_, .i32⟩
  | .hbm, ⟨55, _⟩ => ⟨S625000, .i32⟩
  | .hbm, ⟨56, _⟩ => ⟨S625000, .i1⟩
  | .hbm, ⟨57, _⟩ => ⟨S_, .i32⟩
  | .hbm, ⟨58, _⟩ => ⟨S625000, .i32⟩
  | .hbm, ⟨59, _⟩ => ⟨S625000, .i32⟩
  | .hbm, ⟨60, _⟩ => ⟨S625000, .i32⟩
  | .hbm, ⟨61, _⟩ => ⟨S625000x1, .i32⟩
  | .hbm, ⟨62, _⟩ => ⟨S625000x128, .f32⟩
  | .hbm, ⟨63, _⟩ => ⟨S625000x128, .f32⟩
  | .hbm, ⟨64, _⟩ => ⟨S625000x128, .f32⟩
  | .hbm, ⟨65, _⟩ => ⟨S625000x1, .f32⟩
  | .hbm, ⟨66, _⟩ => ⟨S_, .i32⟩
  | .hbm, ⟨67, _⟩ => ⟨S625000, .i32⟩
  | .hbm, ⟨68, _⟩ => ⟨S625000, .i1⟩
  | .hbm, ⟨69, _⟩ => ⟨S_, .i32⟩
  | .hbm, ⟨70, _⟩ => ⟨S625000, .i32⟩
  | .hbm, ⟨71, _⟩ => ⟨S625000, .i32⟩
  | .hbm, ⟨72, _⟩ => ⟨S625000, .i32⟩
  | .hbm, ⟨73, _⟩ => ⟨S625000x1, .i32⟩
  | .hbm, ⟨74, _⟩ => ⟨S625000x128, .f32⟩
  | .hbm, ⟨75, _⟩ => ⟨S625000x128, .f32⟩
  | .hbm, ⟨76, _⟩ => ⟨S625000x128, .f32⟩
  | .hbm, ⟨77, _⟩ => ⟨S_, .f32⟩
  | .hbm, ⟨78, _⟩ => ⟨S50000x128, .f32⟩
  | .hbm, ⟨79, _⟩ => ⟨S625000x1, .i32⟩
  | .hbm, ⟨80, _⟩ => ⟨S50000x128, .f32⟩
  | .hbm, ⟨81, _⟩ => ⟨S_, .f32⟩
  | .hbm, ⟨82, _⟩ => ⟨S50000x128, .f32⟩
  | .hbm, ⟨83, _⟩ => ⟨S625000x1, .i32⟩
  | .hbm, ⟨84, _⟩ => ⟨S50000x128, .f32⟩
  | .hbm, ⟨85, _⟩ => ⟨S128x128, .f32⟩
  | .hbm, ⟨86, _⟩ => ⟨S50000x128, .f32⟩
  | .hbm, ⟨87, _⟩ => ⟨S1x128, .f32⟩
  | .hbm, ⟨88, _⟩ => ⟨S50000x128, .f32⟩
  | .hbm, ⟨89, _⟩ => ⟨S50000x128, .f32⟩
  | .hbm, ⟨90, _⟩ => ⟨S_, .f32⟩
  | .hbm, ⟨91, _⟩ => ⟨S50000x128, .f32⟩
  | .hbm, ⟨92, _⟩ => ⟨S50000x128, .f32⟩
  | .hbm, ⟨93, _⟩ => ⟨S128x128, .f32⟩
  | .hbm, ⟨94, _⟩ => ⟨S50000x128, .f32⟩
  | .hbm, ⟨95, _⟩ => ⟨S1x128, .f32⟩
  | .hbm, ⟨96, _⟩ => ⟨S50000x128, .f32⟩
  | .hbm, ⟨97, _⟩ => ⟨S50000x128, .f32⟩
  | .hbm, ⟨98, _⟩ => ⟨S_, .f32⟩
  | .hbm, ⟨99, _⟩ => ⟨S50000x128, .f32⟩
  | .hbm, ⟨100, _⟩ => ⟨S50000x128, .f32⟩
  | .hbm, ⟨101, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_c : Ref sig .tc := ⟨.hbm, 34, rfl⟩
abbrev main_v21 : Ref sig .tc := ⟨.hbm, 35, rfl⟩
abbrev main_v22 : Ref sig .tc := ⟨.hbm, 36, rfl⟩
abbrev main_c_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_7 : Ref sig .tc := ⟨.hbm, 43, rfl⟩
abbrev main_v28 : Ref sig .tc := ⟨.hbm, 44, rfl⟩
abbrev main_v29 : Ref sig .tc := ⟨.hbm, 45, rfl⟩
abbrev main_c_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_9 : Ref sig .tc := ⟨.hbm, 54, rfl⟩
abbrev main_v37 : Ref sig .tc := ⟨.hbm, 55, rfl⟩
abbrev main_v38 : Ref sig .tc := ⟨.hbm, 56, rfl⟩
abbrev main_c_10 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_11 : Ref sig .tc := ⟨.hbm, 66, rfl⟩
abbrev main_v47 : Ref sig .tc := ⟨.hbm, 67, rfl⟩
abbrev main_v48 : Ref sig .tc := ⟨.hbm, 68, rfl⟩
abbrev main_c_12 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_13 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_14 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_15 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_16 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S_S50000 : S_.BroadcastsInDim S50000 (![] : Fin 0 → Fin S50000.rank)
  bcast_S625000_S625000x1_0 : S625000.BroadcastsInDim S625000x1 (![0] : Fin 1 → Fin S625000x1.rank)
  bcast_S625000x1_S625000x128_0_1 : S625000x1.BroadcastsInDim S625000x128 (![0, 1] : Fin 2 → Fin S625000x128.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S625000x1_S625000_n_0_0_1_wf : ScatterDims.WF S50000 S625000x1 S625000 [] [0] [0] 1
  gather_S50000_S625000x1_S625000_n_0_n_n_0_1_1_wf : GatherDims.WF S50000 S625000x1 S625000 [] [0] [] [0] [] 1 ![1]
  gather_S50000x128_S625000x1_S625000x128_1_0_n_n_0_1_1128_wf : GatherDims.WF S50000x128 S625000x1 S625000x128 [1] [0] [] [0] [] 1 ![1, 128]
  scatter_S50000x128_S625000x1_S625000x128_1_0_0_1_wf : ScatterDims.WF S50000x128 S625000x1 S625000x128 [1] [0] [0] 1
  dot_S50000x128_S128x128_S50000x128_1_0_0_1_n_n_wf : DotDims.WF S50000x128 S128x128 S50000x128 [1] [0] [0] [1] [] []

variable [Facts₀]

def scatter_S50000_S625000x1_S625000_n_0_0_1 : ScatterDims S50000 S625000x1 S625000 where
  updateWindowDims := []
  insertedWindowDims := [0]
  scatterDimsToOperandDims := [0]
  indexVectorDim := 1
  wf := scatter_S50000_S625000x1_S625000_n_0_0_1_wf
def gather_S50000_S625000x1_S625000_n_0_n_n_0_1_1 : GatherDims S50000 S625000x1 S625000 where
  offsetDims := []
  collapsedSliceDims := [0]
  operandBatchingDims := []
  startIndicesBatchingDims := []
  startIndexMap := [0]
  indexVectorDim := 1
  sliceSizes := ![1]
  wf := gather_S50000_S625000x1_S625000_n_0_n_n_0_1_1_wf
def gather_S50000x128_S625000x1_S625000x128_1_0_n_n_0_1_1128 : GatherDims S50000x128 S625000x1 S625000x128 where
  offsetDims := [1]
  collapsedSliceDims := [0]
  operandBatchingDims := []
  startIndicesBatchingDims := []
  startIndexMap := [0]
  indexVectorDim := 1
  sliceSizes := ![1, 128]
  wf := gather_S50000x128_S625000x1_S625000x128_1_0_n_n_0_1_1128_wf
def scatter_S50000x128_S625000x1_S625000x128_1_0_0_1 : ScatterDims S50000x128 S625000x1 S625000x128 where
  updateWindowDims := [1]
  insertedWindowDims := [0]
  scatterDimsToOperandDims := [0]
  indexVectorDim := 1
  wf := scatter_S50000x128_S625000x1_S625000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The function both programs compute at the ideal values, stated once over plain arrays.

  Given two aggregated node-feature arrays S, T : [50000, 128] (the degree-normalised adjacency, and its transpose, applied
  to the features), two weight matrices U, V : [128, 128] and two biases u, v : [128], the result at node p and feature q is

      ½ · (Σₖ S[p,k] · U[q,k] + u[q])  +  ½ · (Σₖ T[p,k] · V[q,k] + v[q]),

  that is ½ (S Uᵀ + u) + ½ (T Vᵀ + v). The factor ½ is kept as the float word 0x3F000000 that both programs print; it is
  never evaluated. Sums and products are those of the extended reals. The kernel and the reference form this expression
  with the same grouping (a 128-term contraction, plus the bias, times ½, the two halves added), so no law that needs a
  finite operand is used anywhere: only that a 128-term sum may be indexed by Fin 128.
-/
import Idealize.ShloMosaic.PureOps.Ideal
import Idealize.ShloMosaic.Lib.ValueIdx

noncomputable section

namespace Cert.DualProjection

open Idealize.ShloMosaic Idealize.ShloMosaic.ValueIdx
open scoped BigOperators

/-- Node features: 50000 nodes, 128 features each. -/
abbrev Nodes : Shape := ⟨2, ![50000, 128]⟩
/-- A weight matrix, output feature by input feature. -/
abbrev Weights : Shape := ⟨2, ![128, 128]⟩
/-- A bias, one entry per output feature. -/
abbrev Bias : Shape := ⟨1, ![128]⟩

/-- The mixing factor ½ as both programs spell it. -/
def half : EReal := Ideal.ofBits .f32 0x3F000000#32

/-- One direction's projection: row p of S against row q of U, plus the bias's entry q. -/
def affine (S : Nodes.Idx → EReal) (U : Weights.Idx → EReal) (u : Bias.Idx → EReal) (p : Fin 50000) (q : Fin 128) : EReal :=
  (∑ k : Fin 128, S (ix2 p k) * U (ix2 q k)) + u (ix1 q)

/-- The two directions mixed half and half, as an array over nodes and features. -/
def blend (S T : Nodes.Idx → EReal) (U V : Weights.Idx → EReal) (u v : Bias.Idx → EReal) : Nodes.Idx → EReal :=
  fun i => half * affine S U u (i 0) (i 1) + half * affine T V v (i 0) (i 1)

theorem blend_apply (S T : Nodes.Idx → EReal) (U V : Weights.Idx → EReal) (u v : Bias.Idx → EReal) (p : Fin 50000) (q : Fin 128) :
    blend S T U V u v (ix2 p q) = half * affine S U u p q + half * affine T V v p q := rfl

end Cert.DualProjection

end
-- ==== Proof.RefSide.lean ====
/-
  The reference's result is the specification.

  The reference aggregates the features twice on the host (the arrays called S and T in the specification: a scatter-add
  over the edges of degree-weighted gathered rows, and the same towards the other endpoint), and then computes, with
  whole-array operations, ½ · (S · W_sdᵀ + b_sd) + ½ · (T · W_dsᵀ + b_ds): each product a dot_general against the
  transposed weight matrix, each bias broadcast over the rows. Read at entry (p, q), operation by operation, this is the
  specification's entry with U = W_sd, V = W_ds, u = b_sd, v = b_ds: the transposed matrix at (k, q) is the matrix at
  (q, k), and the broadcast bias at (p, q) is the bias at q. The two aggregates are never opened.
-/
import proofs.«150152_j43611097924219_1_alg».proof.Proof.RefReadP
import proofs.«150152_j43611097924219_1_alg».proof.Proof.Spec
import Idealize.ShloMosaic.Lib.ValueIdx

noncomputable section

namespace Cert.ReferenceIdeal.RefValue

open Cert.ReferenceIdeal Cert.ReferenceIdeal.ReadP Idealize.ShloMosaic Idealize.ShloMosaic.ValueIdx Cert.DualProjection
open scoped BigOperators

/-- The reference's last stage, as a function of the six arguments, is the specification over the two aggregates the
    reference itself forms from the features and the edge list. -/
theorem result_is_blend (x0 : (⟨S50000x128, .f32⟩ : BufTy).Contents (Elt Ideal)) (x1 : (⟨S2x625000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v76 (F := Ideal) x0 x1 x2 x3 x4 x5
      = blend (val_main_v58 (F := Ideal) x0 x1) (val_main_v61 (F := Ideal) x0 x1) x2 x4 x3 x5 := by
  funext i
  obtain ⟨p, q, rfl⟩ : ∃ (p : Fin 50000) (q : Fin 128), i = ix2 p q := ⟨i 0, i 1, eq_ix2 i⟩
  have el : ∀ k : Fin 128, lidx_main_v63 (ix2 p q) k = ix2 p k := fun k =>
    funext fun a => Fin.ext (by match a with | ⟨0, _⟩ => rfl | ⟨1, _⟩ => rfl)
  have er : ∀ k : Fin 128, idx_main_v62 (ridx_main_v63 (ix2 p q) k) = ix2 q k := fun k =>
    funext fun a => Fin.ext (by match a with | ⟨0, _⟩ => rfl | ⟨1, _⟩ => rfl)
  have el' : ∀ k : Fin 128, lidx_main_v70 (ix2 p q) k = ix2 p k := fun k =>
    funext fun a => Fin.ext (by match a with | ⟨0, _⟩ => rfl | ⟨1, _⟩ => rfl)
  have er' : ∀ k : Fin 128, idx_main_v69 (ridx_main_v70 (ix2 p q) k) = ix2 q k := fun k =>
    funext fun a => Fin.ext (by match a with | ⟨0, _⟩ => rfl | ⟨1, _⟩ => rfl)
  have eb : idx_main_v64 (idx_main_v65 (ix2 p q)) = ix1 q :=
    funext fun a => Fin.ext (by match a with | ⟨0, _⟩ => rfl)
  have eb' : idx_main_v71 (idx_main_v72 (ix2 p q)) = ix1 q :=
    funext fun a => Fin.ext (by match a with | ⟨0, _⟩ => rfl)
  rw [val_main_v76_apply, val_main_v68_apply, val_main_v75_apply, val_main_v66_apply, val_main_v73_apply,
    val_main_v63_apply, val_main_v70_apply, val_main_v67_apply, val_main_v74_apply, val_main_cst_15_apply, val_main_cst_16_apply,
    val_main_v65_apply, val_main_v72_apply, val_main_v64_apply, val_main_v71_apply, blend_apply]
  simp only [val_main_v62_apply, val_main_v69_apply, el, er, el', er', eb, eb']
  rfl

end Cert.ReferenceIdeal.RefValue

end
-- ==== Proof.Payload.lean ====
/-
  What the kernel body stores, read at one entry of its [5000, 128] output block.

  The body loads a block of each aggregate (5000 rows), both weight matrices already transposed ([in, out]), and both
  biases as [1, 128] rows; it forms, for each direction, (block · matrix) + bias by an MXU product into a zero
  accumulator and a row broadcast, and stores ½ · first + ½ · second. At the ideal values the bf16 roundings on the way
  into the product are the identity and the product into zero is the plain 128-term sum, so entry (r, q) of the stored
  block is

      ½ · (Σₖ a[r,k] · w[k,q] + b[0,q])  +  ½ · (Σₖ a'[r,k] · w'[k,q] + b'[0,q]).
-/
import proofs.«150152_j43611097924219_1_alg».proof.Proof.Gen.KernelIdeal.Skeleton
import proofs.«150152_j43611097924219_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockValue

open Cert.KernelIdeal Cert.KernelIdeal.Gen Idealize.ShloMosaic Idealize.ShloMosaic.ValueIdx Cert.DualProjection
open scoped BigOperators

/-! The product's dimension numbers are rows by contraction times contraction by columns, one contracted axis of 128:
    at output entry i and contraction coordinate c the left operand is read at (i₀, c) and the right at (c, i₁). -/

theorem lhs_row (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_contr (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c
theorem rhs_contr (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c
theorem rhs_col (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into a zero accumulator, at entry (r, q): row r of the block against column q of the matrix. -/
theorem matmul_entry (a : FVec Ideal S5000x128 .bf16) (w : FVec Ideal S128x128 .bf16) (r : Fin 5000) (q : Fin 128) :
    matmul (F := Ideal) dot_S5000x128_S128x128_S5000x128_1_0_0_1_n_n none a w (constant S5000x128 .f32 0x00000000#32) (ix2 r q)
      = ∑ k : Fin 128, a (ix2 r k) * w (ix2 k q) := by
  refine (Ideal.matmul_constant_zero_apply dot_S5000x128_S128x128_S5000x128_1_0_0_1_n_n none a w (ix2 r q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r q) ((contrEquiv1 dot_S5000x128_S128x128_S5000x128_1_0_0_1_n_n 128 rfl rfl).symm k) = ix2 r k := funext fun ax => Fin.ext (by
    match ax with
    | ⟨0, _⟩ => exact lhs_row _ _
    | ⟨1, _⟩ => exact (lhs_contr _ _).trans hk)
  have er : dot_S5000x128_S128x128_S5000x128_1_0_0_1_n_n.rhsIdx (ix2 r q) ((contrEquiv1 dot_S5000x128_S128x128_S5000x128_1_0_0_1_n_n 128 rfl rfl).symm k) = ix2 k q := funext fun ax => Fin.ext (by
    match ax with
    | ⟨0, _⟩ => exact (rhs_contr _ _).trans hk
    | ⟨1, _⟩ => exact rhs_col _ _)
  rw [el, er]

/-- One direction of the body: (block · matrix) + the bias row, at entry (r, q). The roundings to bf16 and the casts of a
    shape to itself leave every entry as it was. -/
theorem direction_entry (a : Vec Ideal S5000x128 .f32) (w : Vec Ideal S128x128 .f32) (b : Vec Ideal S1x128 .f32) (r : Fin 5000) (q : Fin 128) :
    (addf (F := Ideal) (matmul dot_S5000x128_S128x128_S5000x128_1_0_0_1_n_n none
        (truncf .bf16 (shapeCast S5000x128 a shapeCasts_S5000x128_S5000x128) bitsLt_bf16_f32)
        (truncf .bf16 (shapeCast S128x128 w shapeCasts_S128x128_S128x128) bitsLt_bf16_f32)
        (constant S5000x128 .f32 0x00000000#32))
      (broadcastTo S5000x128 (shapeCast S1x128 b shapeCasts_S1x128_S1x128) broadcasts_S1x128_S5000x128)) (ix2 r q)
      = (∑ k : Fin 128, a (ix2 r k) * w (ix2 k q)) + b (ix2 (0 : Fin 1) q) := by
  rw [shapeCast_self, shapeCast_self, shapeCast_self]
  show matmul (F := Ideal) dot_S5000x128_S128x128_S5000x128_1_0_0_1_n_n none (truncf .bf16 a bitsLt_bf16_f32) (truncf .bf16 w bitsLt_bf16_f32) (constant S5000x128 .f32 0x00000000#32) (ix2 r q)
      + broadcastTo S5000x128 b broadcasts_S1x128_S5000x128 (ix2 r q) = _
  rw [matmul_entry, broadcastTo_1b_ab_apply]
  rfl

/-- The stored payload at entry (r, q): the two directions mixed half and half. -/
theorem payload_entry (v0 v3 : Vec Ideal S5000x128 .f32) (v6 v9 : Vec Ideal S128x128 .f32) (v13 v18 : Vec Ideal S1x128 .f32)
    (r : Fin 5000) (q : Fin 128) :
    k0_pay1 (F := Ideal) v0 v3 v6 v9 v13 v18 (ix2 r q)
      = half * ((∑ k : Fin 128, v0 (ix2 r k) * v6 (ix2 k q)) + v13 (ix2 (0 : Fin 1) q))
        + half * ((∑ k : Fin 128, v3 (ix2 r k) * v9 (ix2 k q)) + v18 (ix2 (0 : Fin 1) q)) := by
  unfold k0_pay1
  exact congrArg₂ (fun x y : EReal => half * x + half * y) (direction_entry v0 v6 v13 r q) (direction_entry v3 v9 v18 r q)

/-- The same against the specification: if the loaded blocks are, along the entries this one reads, rows of S and T,
    rows of U and V read transposed, and the biases' entries, the stored entry is the specification's at (p, q'). -/
theorem payload_entry_blend (S T : Nodes.Idx → EReal) (U V : Weights.Idx → EReal) (u v : Bias.Idx → EReal)
    (x0 x1 : Vec Ideal S5000x128 .f32) (x2 x3 : Vec Ideal S128x128 .f32) (x4 x5 : Vec Ideal S1x128 .f32)
    (r : Fin 5000) (q : Fin 128) (p : Fin 50000) (q' : Fin 128)
    (h0 : ∀ k : Fin 128, x0 (ix2 r k) = S (ix2 p k)) (h1 : ∀ k : Fin 128, x1 (ix2 r k) = T (ix2 p k))
    (h2 : ∀ k : Fin 128, x2 (ix2 k q) = U (ix2 q' k)) (h3 : ∀ k : Fin 128, x3 (ix2 k q) = V (ix2 q' k))
    (h4 : x4 (ix2 (0 : Fin 1) q) = u (ix1 q')) (h5 : x5 (ix2 (0 : Fin 1) q) = v (ix1 q')) :
    k0_pay1 (F := Ideal) x0 x1 x2 x3 x4 x5 (ix2 r q) = blend S T U V u v (ix2 p q') := by
  rw [payload_entry, blend_apply]
  unfold affine
  simp only [h0, h1, h2, h3, h4, h5]

end Cert.KernelIdeal.BlockValue

end
-- ==== Proof.BlockReads.lean ====
/-
  Where each window's block sits in its array, over the ten grid points.

  The call runs on a grid of ten points. At point t the two aggregates' windows and the output's window are on rows
  5000·t … 5000·t + 4999 of their [50000, 128] arrays (the same row block for all three), and the four small windows —
  the two transposed weight matrices and the two bias rows — are on their whole arrays at every point. So an entry (r, k)
  of an aggregate's block is the array's entry (5000·b + r, k), b the output's block index at the point, and an entry of a
  small window's block is the array's entry at the same coordinates. The relations between the printed index maps are
  decided once over the ten points; every read below is then arithmetic on coordinates.
-/
import proofs.«150152_j43611097924219_1_alg».proof.Proof.Gen.KernelIdeal.Value
import Idealize.ShloMosaic.Lib.ValueIdx

noncomputable section

namespace Cert.KernelIdeal.BlockReads

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The index maps over the grid: the aggregates' windows move with the output's along the rows and stay at column
    block 0; the small windows stay at block (0, 0); the output's row block is below 10 and its column block is 0. -/
theorem index_maps : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) ≤ 9 ∧ win0_6.index t (1 : Fin 2) = 0 :=
  (by decide +kernel : ∀ t : Fin grid0.N, _)

/-- Every row block of the output is some point's. -/
theorem row_block_onto : ∀ b : Fin 10, ∃ t : Fin cfg0.N, win0_6.index t (0 : Fin 2) = b.val :=
  (by decide +kernel : ∀ b : Fin 10, ∃ t : Fin grid0.N, win0_6.index t (0 : Fin 2) = b.val)

/-- A [5000, 128] block of a [50000, 128] array at point t, read at (r, k), is the array at (p, k), p = 5000 · (the
    output's row block) + r — for the first aggregate's window, whatever the array holds. -/
theorem rows_sd (t : Fin cfg0.N) (A : S50000x128.Idx → EReal) (r : Fin 5000) (k : Fin 128) (p : Fin 50000)
    (hp : p.val = win0_6.index t (0 : Fin 2) * 5000 + r.val) :
    ((cfg0.win 0).blk t).view.read (Elt Ideal) A (ix2 r k : S5000x128.Idx) = A (ix2 p k) := by
  obtain ⟨e0, e1, -⟩ := index_maps t
  rw [View.read_apply]
  show A (((cfg0.win 0).blk t).view.emb (ix2 r k : S5000x128.Idx)) = _
  refine congrArg A (funext fun a => Fin.ext ?_)
  match a with
  | ⟨0, _⟩ => show win0_0.index t (0 : Fin 2) * 5000 + 1 * r.val = p.val; omega
  | ⟨1, _⟩ => show win0_0.index t (1 : Fin 2) * 128 + 1 * k.val = k.val; omega

/-- The same for the second aggregate's window. -/
theorem rows_ds (t : Fin cfg0.N) (A : S50000x128.Idx → EReal) (r : Fin 5000) (k : Fin 128) (p : Fin 50000)
    (hp : p.val = win0_6.index t (0 : Fin 2) * 5000 + r.val) :
    ((cfg0.win 1).blk t).view.read (Elt Ideal) A (ix2 r k : S5000x128.Idx) = A (ix2 p k) := by
  obtain ⟨-, -, e0, e1, -⟩ := index_maps t
  rw [View.read_apply]
  show A (((cfg0.win 1).blk t).view.emb (ix2 r k : S5000x128.Idx)) = _
  refine congrArg A (funext fun a => Fin.ext ?_)
  match a with
  | ⟨0, _⟩ => show win0_1.index t (0 : Fin 2) * 5000 + 1 * r.val = p.val; omega
  | ⟨1, _⟩ => show win0_1.index t (1 : Fin 2) * 128 + 1 * k.val = k.val; omega

/-- A weight window's block is its whole [128, 128] array, at every point. -/
theorem whole_wsd (t : Fin cfg0.N) (A : S128x128.Idx → EReal) (k q : Fin 128) :
    ((cfg0.win 2).blk t).view.read (Elt Ideal) A (ix2 k q : S128x128.Idx) = A (ix2 k q) := by
  obtain ⟨-, -, -, -, e0, e1, -⟩ := index_maps t
  rw [View.read_apply]
  show A (((cfg0.win 2).blk t).view.emb (ix2 k q : S128x128.Idx)) = _
  refine congrArg A (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

theorem whole_wds (t : Fin cfg0.N) (A : S128x128.Idx → EReal) (k q : Fin 128) :
    ((cfg0.win 3).blk t).view.read (Elt Ideal) A (ix2 k q : S128x128.Idx) = A (ix2 k q) := by
  obtain ⟨-, -, -, -, -, -, e0, e1, -⟩ := index_maps t
  rw [View.read_apply]
  show A (((cfg0.win 3).blk t).view.emb (ix2 k q : S128x128.Idx)) = _
  refine congrArg A (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-- A bias window's block is its whole [1, 128] row, at every point. -/
theorem whole_bsd (t : Fin cfg0.N) (A : S1x128.Idx → EReal) (q : Fin 128) :
    ((cfg0.win 4).blk t).view.read (Elt Ideal) A (ix2 (0 : Fin 1) q : S1x128.Idx) = A (ix2 (0 : Fin 1) q) := by
  obtain ⟨-, -, -, -, -, -, -, -, e0, e1, -⟩ := index_maps t
  rw [View.read_apply]
  show A (((cfg0.win 4).blk t).view.emb (ix2 (0 : Fin 1) q : S1x128.Idx)) = _
  refine congrArg A (funext fun a => Fin.ext ?_)
  match a with
  | ⟨0, _⟩ => show win0_4.index t (0 : Fin 2) * 1 + 1 * (0 : Fin 1).val = (0 : Fin 1).val; omega
  | ⟨1, _⟩ => show win0_4.index t (1 : Fin 2) * 128 + 1 * q.val = q.val; omega

theorem whole_bds (t : Fin cfg0.N) (A : S1x128.Idx → EReal) (q : Fin 128) :
    ((cfg0.win 5).blk t).view.read (Elt Ideal) A (ix2 (0 : Fin 1) q : S1x128.Idx) = A (ix2 (0 : Fin 1) q) := by
  obtain ⟨-, -, -, -, -, -, -, -, -, -, e0, e1, -⟩ := index_maps t
  rw [View.read_apply]
  show A (((cfg0.win 5).blk t).view.emb (ix2 (0 : Fin 1) q : S1x128.Idx)) = _
  refine congrArg A (funext fun a => Fin.ext ?_)
  match a with
  | ⟨0, _⟩ => show win0_5.index t (0 : Fin 2) * 1 + 1 * (0 : Fin 1).val = (0 : Fin 1).val; omega
  | ⟨1, _⟩ => show win0_5.index t (1 : Fin 2) * 128 + 1 * q.val = q.val; omega

/-- Which buffer each window's array is: for any family of contents indexed by the buffer, the contents at a window's
    array are the contents at the buffer the call names for that operand. -/
theorem arrays (c : Dev nD) (Vf : (b : Ref sig .tc) → Buf (Elt Ideal) ((c : Thread nD τ).loc b)) :
    (Vf (Pipeline.arrRef spec0 0) : S50000x128.Idx → EReal) = Vf main_v58
    ∧ (Vf (Pipeline.arrRef spec0 1) : S50000x128.Idx → EReal) = Vf main_v61
    ∧ (Vf (Pipeline.arrRef spec0 2) : S128x128.Idx → EReal) = Vf main_v62
    ∧ (Vf (Pipeline.arrRef spec0 3) : S128x128.Idx → EReal) = Vf main_v63
    ∧ (Vf (Pipeline.arrRef spec0 4) : S1x128.Idx → EReal) = Vf main_v64
    ∧ (Vf (Pipeline.arrRef spec0 5) : S1x128.Idx → EReal) = Vf main_v65 :=
  ⟨rfl, rfl, rfl, rfl, rfl, rfl⟩

/-- Entry (r, k) of the first aggregate's block at point t is the entry (p, k) of the array the region finds. -/
theorem read_agg_sd (c : Dev nD) (t : Fin cfg0.N) (r : Fin 5000) (k : Fin 128) (p : Fin 50000)
    (hp : p.val = win0_6.index t (0 : Fin 2) * 5000 + r.val) :
    (iblk m c 0 t : Vec Ideal S5000x128 .f32) (ix2 r k) = (V m c main_v58 : S50000x128.Idx → EReal) (ix2 p k) := by
  unfold iblk
  exact (rows_sd t (V m c (Pipeline.arrRef spec0 0)) r k p hp).trans (congrFun (arrays c (V m c)).1 (ix2 p k))

theorem read_agg_ds (c : Dev nD) (t : Fin cfg0.N) (r : Fin 5000) (k : Fin 128) (p : Fin 50000)
    (hp : p.val = win0_6.index t (0 : Fin 2) * 5000 + r.val) :
    (iblk m c 1 t : Vec Ideal S5000x128 .f32) (ix2 r k) = (V m c main_v61 : S50000x128.Idx → EReal) (ix2 p k) := by
  unfold iblk
  exact (rows_ds t (V m c (Pipeline.arrRef spec0 1)) r k p hp).trans (congrFun (arrays c (V m c)).2.1 (ix2 p k))

theorem read_wsd (c : Dev nD) (t : Fin cfg0.N) (k q : Fin 128) :
    (iblk m c 2 t : Vec Ideal S128x128 .f32) (ix2 k q) = (V m c main_v62 : S128x128.Idx → EReal) (ix2 k q) := by
  unfold iblk
  exact (whole_wsd t (V m c (Pipeline.arrRef spec0 2)) k q).trans (congrFun (arrays c (V m c)).2.2.1 (ix2 k q))

theorem read_wds (c : Dev nD) (t : Fin cfg0.N) (k q : Fin 128) :
    (iblk m c 3 t : Vec Ideal S128x128 .f32) (ix2 k q) = (V m c main_v63 : S128x128.Idx → EReal) (ix2 k q) := by
  unfold iblk
  exact (whole_wds t (V m c (Pipeline.arrRef spec0 3)) k q).trans (congrFun (arrays c (V m c)).2.2.2.1 (ix2 k q))

theorem read_bsd (c : Dev nD) (t : Fin cfg0.N) (q : Fin 128) :
    (iblk m c 4 t : Vec Ideal S1x128 .f32) (ix2 (0 : Fin 1) q) = (V m c main_v64 : S1x128.Idx → EReal) (ix2 (0 : Fin 1) q) := by
  unfold iblk
  exact (whole_bsd t (V m c (Pipeline.arrRef spec0 4)) q).trans (congrFun (arrays c (V m c)).2.2.2.2.1 (ix2 (0 : Fin 1) q))

theorem read_bds (c : Dev nD) (t : Fin cfg0.N) (q : Fin 128) :
    (iblk m c 5 t : Vec Ideal S1x128 .f32) (ix2 (0 : Fin 1) q) = (V m c main_v65 : S1x128.Idx → EReal) (ix2 (0 : Fin 1) q) := by
  unfold iblk
  exact (whole_bds t (V m c (Pipeline.arrRef spec0 5)) q).trans (congrFun (arrays c (V m c)).2.2.2.2.2 (ix2 (0 : Fin 1) q))

/-- Entry (r, q) of the output's block at point t is the array's entry (p, q), p = 5000 · (row block) + r. -/
theorem out_entry (t : Fin cfg0.N) (r : Fin 5000) (q : Fin 128) (p : Fin 50000)
    (hp : p.val = win0_6.index t (0 : Fin 2) * 5000 + r.val) :
    ((cfg0.win 6).blk t).view.emb (ix2 r q : S5000x128.Idx) = (ix2 p q : S50000x128.Idx) := by
  obtain ⟨-, -, -, -, -, -, -, -, -, -, -, -, -, e1⟩ := index_maps t
  refine funext fun a => Fin.ext ?_
  match a with
  | ⟨0, _⟩ => show win0_6.index t (0 : Fin 2) * 5000 + 1 * r.val = p.val; omega
  | ⟨1, _⟩ => show win0_6.index t (1 : Fin 2) * 128 + 1 * q.val = q.val; omega

end Cert.KernelIdeal.BlockReads

end
-- ==== Proof.EntryWeights.lean ====
/-
  The four small arrays the kernel's region finds on entry, as functions of the arguments.

  Before the call the host program transposes both weight matrices and reshapes both biases to one row. None of these
  operations depends on the edge list, so each array is one operation of one argument: the transposes are, word for word,
  the reference's own transposed weights (the reference forms the same two arrays for its products), and the biases are
  the [128] arguments viewed as [1, 128].
-/
import proofs.«150152_j43611097924219_1_alg».proof.Proof.Gen.KernelIdeal.Frame
import proofs.«150152_j43611097924219_1_alg».proof.Proof.RefReadP
import Idealize.ShloMosaic.Lib.StableHlo.Run

noncomputable section

namespace Cert.KernelIdeal.EntryArrays

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

set_option maxRecDepth 8192 in
set_option maxHeartbeats 4000000 in
/-- The first direction's weights on entry: the argument transposed, the reference's own array. -/
theorem entry_wsd (c : Dev nD) : (V m c main_v62 : S128x128.Idx → EReal)
    = Cert.ReferenceIdeal.ReadP.val_main_v62 (F := Ideal) (m ((c : Thread nD τ).loc main_arg2)) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp
  rfl

set_option maxRecDepth 8192 in
set_option maxHeartbeats 4000000 in
/-- The second direction's weights on entry. -/
theorem entry_wds (c : Dev nD) : (V m c main_v63 : S128x128.Idx → EReal)
    = Cert.ReferenceIdeal.ReadP.val_main_v69 (F := Ideal) (m ((c : Thread nD τ).loc main_arg4)) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp
  rfl

set_option maxRecDepth 8192 in
set_option maxHeartbeats 4000000 in
/-- The first direction's bias on entry: the [128] argument as one row. -/
theorem entry_bsd (c : Dev nD) : (V m c main_v64 : S1x128.Idx → EReal)
    = shapeCast S1x128 (m ((c : Thread nD τ).loc main_arg3) : S128.Idx → EReal) shapeCasts_S128_S1x128 := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp
  rfl

set_option maxRecDepth 8192 in
set_option maxHeartbeats 4000000 in
/-- The second direction's bias on entry. -/
theorem entry_bds (c : Dev nD) : (V m c main_v65 : S1x128.Idx → EReal)
    = shapeCast S1x128 (m ((c : Thread nD τ).loc main_arg5) : S128.Idx → EReal) shapeCasts_S128_S1x128 := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp
  rfl

end Cert.KernelIdeal.EntryArrays

end
-- ==== Proof.EntryAggSd.lean ====
/-
  The first aggregate the kernel's region finds on entry.

  The kernel's host program builds the source-side aggregate — degrees by a scatter-add of ones, their inverse square
  roots masked where the degree is zero, one weight per edge, the weighted gathered feature rows scatter-added at the
  edges' sources — with the very operations, in the very order, the reference uses. So the array is the reference's own
  stage of the same name applied to the same two arguments; the operations are compared as written and never opened.
-/
import proofs.«150152_j43611097924219_1_alg».proof.Proof.Gen.KernelIdeal.Frame
import proofs.«150152_j43611097924219_1_alg».proof.Proof.RefReadP
import Idealize.ShloMosaic.Lib.StableHlo.Run

noncomputable section

namespace Cert.KernelIdeal.EntryArrays

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

set_option maxRecDepth 65536 in
set_option maxHeartbeats 40000000 in
/-- The aggregate over edges grouped by source, on entry, is the reference's aggregate of the features and the edge list. -/
theorem entry_agg_sd (c : Dev nD) : (V m c main_v58 : S50000x128.Idx → EReal)
    = Cert.ReferenceIdeal.ReadP.val_main_v58 (F := Ideal) (m ((c : Thread nD τ).loc main_arg0)) (m ((c : Thread nD τ).loc main_arg1)) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp
  dsimp only [TRef.toBuf, TRef.ofBuf, cast_eq]
  rfl

end Cert.KernelIdeal.EntryArrays

end
-- ==== Proof.EntryAggDs.lean ====
/-
  The second aggregate the kernel's region finds on entry.

  The kernel's host program builds the destination-side aggregate — the same per-edge weights as for the first, the
  weighted gathered rows of the edges' sources scatter-added at the edges' destinations — with the very operations, in the
  very order, the reference uses. So the array is the reference's own
  stage of the same name applied to the same two arguments; the operations are compared as written and never opened.
-/
import proofs.«150152_j43611097924219_1_alg».proof.Proof.Gen.KernelIdeal.Frame
import proofs.«150152_j43611097924219_1_alg».proof.Proof.RefReadP
import Idealize.ShloMosaic.Lib.StableHlo.Run

noncomputable section

namespace Cert.KernelIdeal.EntryArrays

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

set_option maxRecDepth 65536 in
set_option maxHeartbeats 40000000 in
/-- The aggregate over edges grouped by destination, on entry, is the reference's aggregate of the features and the edge list. -/
theorem entry_agg_ds (c : Dev nD) : (V m c main_v61 : S50000x128.Idx → EReal)
    = Cert.ReferenceIdeal.ReadP.val_main_v61 (F := Ideal) (m ((c : Thread nD τ).loc main_arg0)) (m ((c : Thread nD τ).loc main_arg1)) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp
  dsimp only [TRef.toBuf, TRef.ofBuf, cast_eq]
  rfl

end Cert.KernelIdeal.EntryArrays

end
-- ==== Proof.WholeArray.lean ====
/-
  The kernel's result array, whole.

  Point t of the grid writes back one [5000, 128] block of the output. Entry (r, q) of that block is the body's payload at
  (r, q) of the blocks the point loaded; those blocks are rows 5000·b … of the two aggregates (b the point's row block),
  the whole transposed weight matrices and the whole bias rows; and the arrays behind them are, on entry to the region,
  the reference's own two aggregates, the arguments' weight matrices transposed, and the arguments' biases as rows. So the
  block is the block of ONE array — the specification over the two aggregates, W_sd, W_ds, b_sd, b_ds — and, the ten
  blocks tiling the 50000 rows, the output array ends holding that array.
-/
import proofs.«150152_j43611097924219_1_alg».proof.Proof.Gen.KernelIdeal.Value
import proofs.«150152_j43611097924219_1_alg».proof.Proof.Payload
import proofs.«150152_j43611097924219_1_alg».proof.Proof.BlockReads
import proofs.«150152_j43611097924219_1_alg».proof.Proof.EntryWeights
import proofs.«150152_j43611097924219_1_alg».proof.Proof.EntryAggSd
import proofs.«150152_j43611097924219_1_alg».proof.Proof.EntryAggDs
import Idealize.ShloMosaic.Lib.ValueLayout

noncomputable section

namespace Cert.KernelIdeal.WholeArray

open Cert.KernelIdeal Cert.KernelIdeal.Gen Cert.KernelIdeal.BlockValue Cert.KernelIdeal.BlockReads Cert.KernelIdeal.EntryArrays
open Idealize.ShloMosaic Idealize.ShloMosaic.TcCoe Idealize.SL.Sem Idealize.ShloMosaic.ValueIdx Cert.DualProjection
open Idealize.ShloMosaic.Pipeline (Dat)

variable (m : (ℓ : Loc nD τ sig) → Buf (Elt Ideal) ℓ) (ρ : Dev nD → PrngReg)

/-- The aggregate over edges grouped by source: the reference's stage, of the features and the edge list. -/
abbrev aggSd (c : Dev nD) : Nodes.Idx → EReal :=
  Cert.ReferenceIdeal.ReadP.val_main_v58 (F := Ideal) (m ((c : Thread nD τ).loc main_arg0)) (m ((c : Thread nD τ).loc main_arg1))
/-- The aggregate over edges grouped by destination. -/
abbrev aggDs (c : Dev nD) : Nodes.Idx → EReal :=
  Cert.ReferenceIdeal.ReadP.val_main_v61 (F := Ideal) (m ((c : Thread nD τ).loc main_arg0)) (m ((c : Thread nD τ).loc main_arg1))

/-- What the output array ends holding: the specification over the two aggregates and the four weight arguments. -/
def result (c : Dev nD) : Nodes.Idx → EReal :=
  blend (aggSd m c) (aggDs m c) (m ((c : Thread nD τ).loc main_arg2)) (m ((c : Thread nD τ).loc main_arg4))
    (m ((c : Thread nD τ).loc main_arg3)) (m ((c : Thread nD τ).loc main_arg5))

/-- The transposed first weight matrix the region finds, at (k, q), is W_sd at (q, k). -/
theorem wsd_entry (c : Dev nD) (k q : Fin 128) :
    (V m c main_v62 : S128x128.Idx → EReal) (ix2 k q) = (m ((c : Thread nD τ).loc main_arg2) : Weights.Idx → EReal) (ix2 q k) := by
  rw [entry_wsd, Cert.ReferenceIdeal.ReadP.val_main_v62_apply]
  exact congrArg _ (funext fun a => Fin.ext (by match a with | ⟨0, _⟩ => rfl | ⟨1, _⟩ => rfl))

/-- The transposed second weight matrix the region finds, at (k, q), is W_ds at (q, k). -/
theorem wds_entry (c : Dev nD) (k q : Fin 128) :
    (V m c main_v63 : S128x128.Idx → EReal) (ix2 k q) = (m ((c : Thread nD τ).loc main_arg4) : Weights.Idx → EReal) (ix2 q k) := by
  rw [entry_wds, Cert.ReferenceIdeal.ReadP.val_main_v69_apply]
  exact congrArg _ (funext fun a => Fin.ext (by match a with | ⟨0, _⟩ => rfl | ⟨1, _⟩ => rfl))

/-- The first bias row the region finds, at (0, q), is b_sd at q. -/
theorem bsd_entry (c : Dev nD) (q : Fin 128) :
    (V m c main_v64 : S1x128.Idx → EReal) (ix2 (0 : Fin 1) q) = (m ((c : Thread nD τ).loc main_arg3) : Bias.Idx → EReal) (ix1 q) := by
  rw [entry_bsd]
  exact shapeCast_a_1a_apply _ _ (0 : Fin 1) q

/-- The second bias row the region finds, at (0, q), is b_ds at q. -/
theorem bds_entry (c : Dev nD) (q : Fin 128) :
    (V m c main_v65 : S1x128.Idx → EReal) (ix2 (0 : Fin 1) q) = (m ((c : Thread nD τ).loc main_arg5) : Bias.Idx → EReal) (ix1 q) := by
  rw [entry_bds]
  exact shapeCast_a_1a_apply _ _ (0 : Fin 1) q

theorem origin : (![0, 0] : Fin 2 → Nat) = fun _ => 0 := funext fun a => by fin_cases a <;> rfl

/-- What point t writes back is block t of `result`. -/
theorem flushed_eq (c : Dev nD) (t : Fin cfg0.N) :
    (dats m 0 c).flushed 6 t = ((cfg0.win 6).blk t).view.read (Elt Ideal) (result m c) := by
  rw [Value.flushed6]
  unfold out0_6
  rw [View.canon_unit_zero origin]
  simp only [View.ld_unit_zero (S := S5000x128) origin, View.ld_unit_zero (S := S128x128) origin, View.ld_unit_zero (S := S1x128) origin]
  obtain ⟨-, -, -, -, -, -, -, -, -, -, -, -, hb, -⟩ := index_maps t
  funext j
  have hj0 : (j 0).val < 5000 := (j 0).isLt
  have hj1 : (j 1).val < 128 := (j 1).isLt
  obtain ⟨r, hr⟩ : ∃ r : Fin 5000, r.val = (j 0).val := ⟨⟨(j 0).val, hj0⟩, rfl⟩
  obtain ⟨q, hq⟩ : ∃ q : Fin 128, q.val = (j 1).val := ⟨⟨(j 1).val, hj1⟩, rfl⟩
  obtain ⟨p, hp⟩ : ∃ p : Fin 50000, p.val = win0_6.index t (0 : Fin 2) * 5000 + r.val :=
    ⟨⟨win0_6.index t (0 : Fin 2) * 5000 + r.val, by have := r.isLt; omega⟩, rfl⟩
  have hj : (j : S5000x128.Idx) = ix2 r q :=
    funext fun a => Fin.ext (by match a with | ⟨0, _⟩ => exact hr.symm | ⟨1, _⟩ => exact hq.symm)
  show k0_pay1 (F := Ideal) (iblk m c 0 t) (iblk m c 1 t) (iblk m c 2 t) (iblk m c 3 t) (iblk m c 4 t) (iblk m c 5 t) (j : S5000x128.Idx)
    = result m c (((cfg0.win 6).blk t).view.emb (j : S5000x128.Idx))
  rw [hj, out_entry t r q p hp]
  exact payload_entry_blend (aggSd m c) (aggDs m c) (m ((c : Thread nD τ).loc main_arg2)) (m ((c : Thread nD τ).loc main_arg4))
    (m ((c : Thread nD τ).loc main_arg3)) (m ((c : Thread nD τ).loc main_arg5))
    (iblk m c 0 t) (iblk m c 1 t) (iblk m c 2 t) (iblk m c 3 t) (iblk m c 4 t) (iblk m c 5 t) r q p q
    (fun k => (read_agg_sd m c t r k p hp).trans (congrFun (entry_agg_sd m c) (ix2 p k)))
    (fun k => (read_agg_ds m c t r k p hp).trans (congrFun (entry_agg_ds m c) (ix2 p k)))
    (fun k => (read_wsd m c t k q).trans (wsd_entry m c k q))
    (fun k => (read_wds m c t k q).trans (wds_entry m c k q))
    ((read_bsd m c t q).trans (bsd_entry m c q))
    ((read_bds m c t q).trans (bds_entry m c q))

/-- An index of the array is in point t's block iff each coordinate is in the block's range on its axis. -/
theorem mem_block (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v66).slice (win0_6.rect t)).set ↔ _
  rw [View.set_slice_whole, Rect.mem_set_unit]
  exact Iff.rfl

/-- The ten blocks tile the array: row i is in row block i / 5000. -/
theorem cover (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ := row_block_onto ⟨(i 0).val / 5000, by omega⟩
  obtain ⟨-, -, -, -, -, -, -, -, -, -, -, -, -, hc⟩ := index_maps t
  have hb : win0_6.index t (0 : Fin 2) = (i 0).val / 5000 := ht
  refine ⟨t, flush0_6 t, ?_⟩
  rw [mem_block]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- The output array after the run is `result`. -/
theorem final (c : Dev nD) : (dats m 0 c).arrAt 6 cfg0.N = result m c :=
  (dats m 0 c).arrAt_eq_of_cover 6 (result m c) (fun t _ => flushed_eq m c t) cover

/-- The kernel's run: every weakly fair execution terminates with the result buffer at `result` and the arguments as launched. -/
theorem run : θ_run defs (onTc (τ := τ) (main (F := Ideal))) ⟨m, fun _ => 0, ρ⟩ fun r => ∀ c : Dev nD,
      r.2.mem ((c : Thread nD τ).loc main_v66) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.WholeArray

end
-- ==== Proof.lean ====
/-
  Equivalence, over the extended reals, of a dual-direction graph convolution's kernel and its jnp reference.

  Both programs take node features x : [50000, 128], an edge list [2, 625000], two weight matrices and two biases. Both
  first aggregate the features over the edges on the host, twice — S, over edges grouped by source, and T, grouped by
  destination, each row a degree-weighted sum of neighbours' rows — with the same operations in the same order. The
  reference then computes ½ (S · W_sdᵀ + b_sd) + ½ (T · W_dsᵀ + b_ds) with whole-array operations; the kernel transposes
  the weights and views the biases as rows on the host, and computes the same expression in ten row blocks of 5000 on the
  TensorCore (bf16 operands into f32 MXU products, which at the ideal values are exact).

  The proof never opens S or T. The kernel's run leaves in the output array the specification's array over the very
  aggregates the reference forms (Proof/WholeArray.lean, over the kernel's body read at an entry, the blocks' places in
  their arrays, and the arrays the region finds on entry); the reference's result is the same array (Proof/RefSide.lean);
  the arguments agree. The three frames are the generated frame runs and the reference's run with its result dropped; the
  idealization rewrote nothing, so `preserves` holds trivially. No step uses that the inputs are finite: the two sides
  form the expression with the same grouping, and a 128-term sum of extended reals does not depend on how it is indexed.
-/
import proofs.«150152_j43611097924219_1_alg».proof.Defs
import proofs.«150152_j43611097924219_1_alg».proof.Proof.Gen.Kernel
import proofs.«150152_j43611097924219_1_alg».proof.Proof.Gen.Kernel.Frame
import proofs.«150152_j43611097924219_1_alg».proof.Proof.Gen.KernelIdeal
import proofs.«150152_j43611097924219_1_alg».proof.Proof.Gen.KernelIdeal.Frame
import proofs.«150152_j43611097924219_1_alg».proof.Proof.Gen.ReferenceIdeal
import proofs.«150152_j43611097924219_1_alg».proof.Proof.Gen.Pre_finite_inputs
import proofs.«150152_j43611097924219_1_alg».proof.Proof.RefRunP
import proofs.«150152_j43611097924219_1_alg».proof.Proof.RefReadP
import proofs.«150152_j43611097924219_1_alg».proof.Proof.RefSide
import proofs.«150152_j43611097924219_1_alg».proof.Proof.WholeArray
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both runs end with the specification's array over the aggregates of the (agreeing) features and edge list, the
    weights and the biases. -/
theorem algebraic : Cert.algebraic_KernelIdeal_ReferenceIdeal := by
  intro m ρ m' ρ' _ hagree
  refine ⟨fun c => Cert.KernelIdeal.WholeArray.result m c, Cert.KernelIdeal.WholeArray.run m ρ, ?_⟩
  refine (θ_run Cert.ReferenceIdeal.defs _ _).mono (fun _ h c => ⟨(h c).1.trans ?_, (h c).2⟩)
    (Cert.ReferenceIdeal.ValueP.run (F := Ideal) m' ρ')
  show Cert.ReferenceIdeal.ValueP.res_main_v76 m' c = Cert.KernelIdeal.WholeArray.result m c
  rw [Cert.ReferenceIdeal.ReadP.val_main_v76_eq, Cert.ReferenceIdeal.RefValue.result_is_blend,
    (hagree c).1, (hagree c).2.1, (hagree c).2.2.1, (hagree c).2.2.2.1, (hagree c).2.2.2.2.1, (hagree c).2.2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
